-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x400x10000 : Shape := ⟨3, ![32, 400, 10000]⟩
abbrev S400x10000 : Shape := ⟨2, ![400, 10000]⟩
abbrev S1x4000000 : Shape := ⟨2, ![1, 4000000]⟩
abbrev S1 : Shape := ⟨1, ![1]⟩
abbrev S_ : Shape := ⟨0, ![]⟩

class Facts : Prop where
  bcast_S_S32x400x10000 : S_.BroadcastsInDim S32x400x10000 (![] : Fin 0 → Fin S32x400x10000.rank)
  reducesTo_S32x400x10000_S_d0_1_2 : S32x400x10000.ReducesTo [0, 1, 2] S_
  h_S_ : 0 < S_.numel
  bcast_S_S400x10000 : S_.BroadcastsInDim S400x10000 (![] : Fin 0 → Fin S400x10000.rank)
  reducesTo_S400x10000_S_d0_1 : S400x10000.ReducesTo [0, 1] S_
  bcast_S_S1x4000000 : S_.BroadcastsInDim S1x4000000 (![] : Fin 0 → Fin S1x4000000.rank)
  reducesTo_S1x4000000_S_d0_1 : S1x4000000.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S32x400x10000 .f32) (main_arg1 : FVec F S400x10000 .f32) (main_arg2 : FVec F S1x4000000 .f32) (main_arg3 : FVec F S1 .f32) : IVec S_ 1 :=
  let main_v0 : FVec F S32x400x10000 .f32 := Host.absf main_arg0
  let main_cst : FVec F S_ .f32 := constant S_ .f32 0x7F800000#32
  let main_v1 : FVec F S32x400x10000 .f32 := broadcastInDim S32x400x10000 ![] bcast_S_S32x400x10000 main_cst
  let main_v2 : IVec S32x400x10000 1 := cmpf .olt main_v0 main_v1
  let main_c : IVec S_ 1 := constantI S_ 1 1#1
  let main_v3 : IVec S_ 1 := (fun x v => Host.reduce IntOp.andi x v reducesTo_S32x400x10000_S_d0_1_2 h_S_) main_v2 main_c
  let main_v4 : FVec F S400x10000 .f32 := Host.absf main_arg1
  let main_cst_0 : FVec F S_ .f32 := constant S_ .f32 0x7F800000#32
  let main_v5 : FVec F S400x10000 .f32 := broadcastInDim S400x10000 ![] bcast_S_S400x10000 main_cst_0
  let main_v6 : IVec S400x10000 1 := cmpf .olt main_v4 main_v5
  let main_c_1 : IVec S_ 1 := constantI S_ 1 1#1
  let main_v7 : IVec S_ 1 := (fun x v => Host.reduce IntOp.andi x v reducesTo_S400x10000_S_d0_1 h_S_) main_v6 main_c_1
  let main_v8 : IVec S_ 1 := andi main_v3 main_v7
  let main_v9 : FVec F S1x4000000 .f32 := Host.absf main_arg2
  let main_cst_2 : FVec F S_ .f32 := constant S_ .f32 0x7F800000#32
  let main_v10 : FVec F S1x4000000 .f32 := broadcastInDim S1x4000000 ![] bcast_S_S1x4000000 main_cst_2
  let main_v11 : IVec S1x4000000 1 := cmpf .olt main_v9 main_v10
  let main_c_3 : IVec S_ 1 := constantI S_ 1 1#1
  let main_v12 : IVec S_ 1 := (fun x v => Host.reduce IntOp.andi x v reducesTo_S1x4000000_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S32x400x10000 : Shape := ⟨3, ![32, 400, 10000]⟩
abbrev S400x10000 : Shape := ⟨2, ![400, 10000]⟩
abbrev S1x4000000 : Shape := ⟨2, ![1, 4000000]⟩
abbrev S1 : Shape := ⟨1, ![1]⟩
abbrev S32x4000000 : Shape := ⟨2, ![32, 4000000]⟩
abbrev S32x1 : Shape := ⟨2, ![32, 1]⟩
abbrev S16x160000 : Shape := ⟨2, ![16, 160000]⟩
abbrev S1x160000 : Shape := ⟨2, ![1, 160000]⟩
abbrev S16x1 : Shape := ⟨2, ![16, 1]⟩
abbrev S16 : Shape := ⟨1, ![16]⟩
abbrev S1x1 : Shape := ⟨2, ![1, 1]⟩

abbrev nBuf : Space → Nat
  | .hbm => 10
  | .vmem => 9
  | .smem => 0
  | _ => 0

abbrev bufTy : (tb : Table) → Fin (tcTables nBuf tb) → BufTy
  | .hbm, ⟨0, _⟩ => ⟨S32x400x10000, .f32⟩
  | .hbm, ⟨1, _⟩ => ⟨S400x10000, .f32⟩
  | .hbm, ⟨2, _⟩ => ⟨S1x4000000, .f32⟩
  | .hbm, ⟨3, _⟩ => ⟨S1, .f32⟩
  | .hbm, ⟨4, _⟩ => ⟨S32x4000000, .f32⟩
  | .hbm, ⟨5, _⟩ => ⟨S1x4000000, .f32⟩
  | .hbm, ⟨6, _⟩ => ⟨S32x1, .f32⟩
  | .hbm, ⟨7, _⟩ => ⟨S1x1, .f32⟩
  | .hbm, ⟨8, _⟩ => ⟨S32x1, .f32⟩
  | .hbm, ⟨9, _⟩ => ⟨S32x1, .f32⟩
  | .local _ .vmem, ⟨0, _⟩ => ⟨S16x160000, .f32⟩
  | .local _ .vmem, ⟨1, _⟩ => ⟨S16x160000, .f32⟩
  | .local _ .vmem, ⟨2, _⟩ => ⟨S1x160000, .f32⟩
  | .local _ .vmem, ⟨3, _⟩ => ⟨S1x160000, .f32⟩
  | .local _ .vmem, ⟨4, _⟩ => ⟨S1x160000, .f32⟩
  | .local _ .vmem, ⟨5, _⟩ => ⟨S1x160000, .f32⟩
  | .local _ .vmem, ⟨6, _⟩ => ⟨S16x1, .f32⟩
  | .local _ .vmem, ⟨7, _⟩ => ⟨S16x1, .f32⟩
  | .local _ .vmem, ⟨8, _⟩ => ⟨S16x1, .f32⟩
  | _, _ => ⟨S32x400x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v19 : BitVec 1 := Scalar.cmpi .eq arg1 c24_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x160000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x400x10000_S32x4000000 : S32x400x10000.ShapeCasts S32x4000000
  shapeCasts_S400x10000_S1x4000000 : S400x10000.ShapeCasts S1x4000000
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x160000_S16x160000_0_0 : ∀ a, (![0, 0] : Fin 2 → Nat) a + S16x160000.size a ≤ S16x160000.size a
  h_S16x160000 : 0 < S16x160000.numel
  shapeCasts_S16x160000_S16x160000 : S16x160000.ShapeCasts S16x160000
  inb_S1x160000_S1x160000_0_0 : ∀ a, (![0, 0] : Fin 2 → Nat) a + S1x160000.size a ≤ S1x160000.size a
  h_S1x160000 : 0 < S1x160000.numel
  shapeCasts_S1x160000_S1x160000 : S1x160000.ShapeCasts S1x160000
  broadcasts_S1x160000_S16x160000 : S1x160000.Broadcasts S16x160000
  reduces_S16x160000_S16 : S16x160000.Reduces [1] S16
  shapeCasts_S16_S16x1 : S16.ShapeCasts S16x1
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x160000.size a ≤ S32x4000000.size a
  hwx0_0 : ∀ i : grid0.Coords, EltTy.bits .f32 = 32 ∨ (Rect.block (s := S32x4000000) S16x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x160000.size a ≤ S1x4000000.size a
  hwx0_1 : ∀ i : grid0.Coords, EltTy.bits .f32 = 32 ∨ (Rect.block (s := S1x4000000) S1x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x160000.size a ≤ S1x4000000.size a
  hwx0_2 : ∀ i : grid0.Coords, EltTy.bits .f32 = 32 ∨ (Rect.block (s := S1x4000000) S1x160000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S32x1.size a
  hwx0_3 : ∀ i : grid0.Coords, EltTy.bits .f32 = 32 ∨ (Rect.block (s := S32x1) S16x1.size (cc0_transform_3 i) (hinb0_3 i)).WholeWords (EltTy.packing .f32)

variable [Facts₀]

abbrev win0_0 : Pipeline.Window sig grid0 :=
  Pipeline.Window.ofSpec (Memref.whole main_v0) S16x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x160000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x400x10000 : Shape := ⟨3, ![32, 400, 10000]⟩
abbrev S400x10000 : Shape := ⟨2, ![400, 10000]⟩
abbrev S1x4000000 : Shape := ⟨2, ![1, 4000000]⟩
abbrev S1 : Shape := ⟨1, ![1]⟩
abbrev S1x400x10000 : Shape := ⟨3, ![1, 400, 10000]⟩
abbrev S32x4000000 : Shape := ⟨2, ![32, 4000000]⟩
abbrev S4000000x1 : Shape := ⟨2, ![4000000, 1]⟩
abbrev S32x1 : Shape := ⟨2, ![32, 1]⟩
abbrev S1x1 : Shape := ⟨2, ![1, 1]⟩

abbrev nBuf : Space → Nat
  | .hbm => 14
  | .vmem => 0
  | .smem => 0
  | _ => 0

abbrev bufTy : (tb : Table) → Fin (tcTables nBuf tb) → BufTy
  | .hbm, ⟨0, _⟩ => ⟨S32x400x10000, .f32⟩
  | .hbm, ⟨1, _⟩ => ⟨S400x10000, .f32⟩
  | .hbm, ⟨2, _⟩ => ⟨S1x4000000, .f32⟩
  | .hbm, ⟨3, _⟩ => ⟨S1, .f32⟩
  | .hbm, ⟨4, _⟩ => ⟨S400x10000, .f32⟩
  | .hbm, ⟨5, _⟩ => ⟨S1x400x10000, .f32⟩
  | .hbm, ⟨6, _⟩ => ⟨S32x400x10000, .f32⟩
  | .hbm, ⟨7, _⟩ => ⟨S32x400x10000, .f32⟩
  | .hbm, ⟨8, _⟩ => ⟨S32x4000000, .f32⟩
  | .hbm, ⟨9, _⟩ => ⟨S4000000x1, .f32⟩
  | .hbm, ⟨10, _⟩ => ⟨S32x1, .f32⟩
  | .hbm, ⟨11, _⟩ => ⟨S1x1, .f32⟩
  | .hbm, ⟨12, _⟩ => ⟨S32x1, .f32⟩
  | .hbm, ⟨13, _⟩ => ⟨S32x1, .f32⟩
  | _, _ => ⟨S32x400x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S400x10000_S1x400x10000_1_2 : S400x10000.BroadcastsInDim S1x400x10000 (![1, 2] : Fin 2 → Fin S1x400x10000.rank)
  bcast_S1x400x10000_S32x400x10000_0_1_2 : S1x400x10000.BroadcastsInDim S32x400x10000 (![0, 1, 2] : Fin 3 → Fin S32x400x10000.rank)
  shapeCasts_S32x400x10000_S32x4000000 : S32x400x10000.ShapeCasts S32x4000000
  transposes_S1x4000000_S4000000x1_1_0 : S1x4000000.Transposes [1, 0] S4000000x1
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  dot_S32x4000000_S4000000x1_S32x1_1_0_0_1_n_n_wf : DotDims.WF S32x4000000 S4000000x1 S32x1 [1] [0] [0] [1] [] []

variable [Facts₀]

def dot_S32x4000000_S4000000x1_S32x1_1_0_0_1_n_n : DotDims S32x4000000 S4000000x1 S32x1 where
  lhsContracting := [1]
  rhsContracting := [0]
  lhsNonContracting := [0]
  rhsNonContracting := [1]
  lhsBatch := []
  rhsBatch := []
  wf := dot_S32x4000000_S4000000x1_S32x1_1_0_0_1_n_n_wf

class Facts : Prop extends Facts₀ where

variable [Facts]
-- ==== Proof.Pieces.lean ====
/-
  What one run of the kernel body leaves behind, as values.

  The body keeps a `[16, 1]` running total in a scratch buffer that survives from one grid point to the next. Along the
  25 chunks of a row block there are three kinds of grid point:
    * the first chunk: the body first stores the zero block into the scratch, reads it back, and stores the step of
      the running total taken from zero;
    * a middle chunk: it stores the step taken from what the previous point left;
    * the last chunk: the same step, after which it reads the scratch back and copies it to the output block.
  Every store and load goes through the whole `[16, 1]` (or whole input) rectangle at zero offsets, so each buffer
  ends holding exactly the payload of its last store, and each load reads exactly the contents it finds. The four
  statements below say so for the scratch in each kind of point and for the output block at the last chunk; they
  hold for any float values.
-/
import proofs.«148946_j91268055040039_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 rectangle, however they are spelt. -/
theorem hz : (![0, 0] : Fin 2 → Nat) = fun _ => 0 := funext fun a => by fin_cases a <;> rfl

/-- At a middle chunk the scratch ends at the step of the running total, taken from what it held. -/
theorem scratch_middle (c : Dev nD) (i : grid0.Coords) (arg2 : Memref sig .tc .vmem S16x160000 .f32) (harg2 : arg2.IsWhole) (arg3 : Memref sig .tc .vmem S1x160000 .f32) (harg3 : arg3.IsWhole) (arg4 : Memref sig .tc .vmem S1x160000 .f32) (harg4 : arg4.IsWhole) (arg5 : Memref sig .tc .vmem S16x1 .f32) (harg5 : arg5.IsWhole) (arg6 : Memref sig .tc .vmem S16x1 .f32) (harg6 : arg6.IsWhole) (hc0 : ¬cond0_0 i) (hc1 : ¬cond0_1 i)
    (x0 : Vec F S16x160000 .f32) (x1 : Vec F S1x160000 .f32) (x2 : Vec F S1x160000 .f32) (xs0 : Vec F S16x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero (S := S16x1) hz]
  simp only [View.readAt_eq_ld, harg2.read_unread, harg3.read_unread, harg4.read_unread, harg6.read_unread,
    View.ld_unit_zero (S := S16x160000) hz, View.ld_unit_zero (S := S1x160000) hz, View.ld_unit_zero (S := S16x1) hz]

/-- At the first chunk the scratch ends at the step taken from the zero block: the body's own reset, read back. -/
theorem scratch_first (c : Dev nD) (i : grid0.Coords) (arg2 : Memref sig .tc .vmem S16x160000 .f32) (harg2 : arg2.IsWhole) (arg3 : Memref sig .tc .vmem S1x160000 .f32) (harg3 : arg3.IsWhole) (arg4 : Memref sig .tc .vmem S1x160000 .f32) (harg4 : arg4.IsWhole) (arg5 : Memref sig .tc .vmem S16x1 .f32) (harg5 : arg5.IsWhole) (arg6 : Memref sig .tc .vmem S16x1 .f32) (harg6 : arg6.IsWhole) (hc0 : cond0_0 i) (hc1 : ¬cond0_1 i)
    (x0 : Vec F S16x160000 .f32) (x1 : Vec F S1x160000 .f32) (x2 : Vec F S1x160000 .f32) :
    sout0_A_0 c i arg2 harg2 arg3 harg3 arg4 harg4 arg5 harg5 arg6 harg6 hc0 hc1 x0 x1 x2 = k0_pay2 x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S16x1) hz, View.readCov_unit_zero (S := S16x1) _ hz]
  simp only [View.readAt_eq_ld, harg2.read_unread, harg3.read_unread, harg4.read_unread, harg6.read_unread,
    View.ld_unit_zero (S := S16x160000) hz, View.ld_unit_zero (S := S1x160000) hz, View.ld_unit_zero (S := S16x1) hz]

/-- At the last chunk the scratch ends at the step taken from what it held, as at a middle chunk. -/
theorem scratch_last (c : Dev nD) (i : grid0.Coords) (arg2 : Memref sig .tc .vmem S16x160000 .f32) (harg2 : arg2.IsWhole) (arg3 : Memref sig .tc .vmem S1x160000 .f32) (harg3 : arg3.IsWhole) (arg4 : Memref sig .tc .vmem S1x160000 .f32) (harg4 : arg4.IsWhole) (arg5 : Memref sig .tc .vmem S16x1 .f32) (harg5 : arg5.IsWhole) (arg6 : Memref sig .tc .vmem S16x1 .f32) (harg6 : arg6.IsWhole) (hc0 : ¬cond0_0 i) (hc1 : cond0_1 i)
    (x0 : Vec F S16x160000 .f32) (x1 : Vec F S1x160000 .f32) (x2 : Vec F S1x160000 .f32) (xs0 : Vec F S16x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S16x1) hz]
  simp only [View.readAt_eq_ld, harg2.read_unread, harg3.read_unread, harg4.read_unread, harg6.read_unread,
    View.ld_unit_zero (S := S16x160000) hz, View.ld_unit_zero (S := S1x160000) hz, View.ld_unit_zero (S := S16x1) hz]

/-- At the last chunk the output block ends at that same step: the scratch read back after its store. -/
theorem output_last (c : Dev nD) (i : grid0.Coords) (arg2 : Memref sig .tc .vmem S16x160000 .f32) (harg2 : arg2.IsWhole) (arg3 : Memref sig .tc .vmem S1x160000 .f32) (harg3 : arg3.IsWhole) (arg4 : Memref sig .tc .vmem S1x160000 .f32) (harg4 : arg4.IsWhole) (arg5 : Memref sig .tc .vmem S16x1 .f32) (harg5 : arg5.IsWhole) (arg6 : Memref sig .tc .vmem S16x1 .f32) (harg6 : arg6.IsWhole) (hc0 : ¬cond0_0 i) (hc1 : cond0_1 i)
    (x0 : Vec F S16x160000 .f32) (x1 : Vec F S1x160000 .f32) (x2 : Vec F S1x160000 .f32) (xs0 : Vec F S16x1 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S16x1) hz, View.readCov_unit_zero (S := S16x1) _ hz]
  simp only [View.readAt_eq_ld, harg2.read_unread, harg3.read_unread, harg4.read_unread, harg6.read_unread,
    View.ld_unit_zero (S := S16x160000) hz, View.ld_unit_zero (S := S1x160000) hz, View.ld_unit_zero (S := S16x1) hz]

end Cert.KernelIdeal.Pieces

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.PayloadAt.lean ====
/-
  The kernel body's arithmetic, read at one row.

  At a grid point the body holds a `[16, 160000]` block `x` of the flattened input, the matching `[1, 160000]` chunks `w`
  and `f` of the two weight rows, and a `[16, 1]` running total `acc`. It forms `|w| · f` once per column, repeats that
  row down the 16 rows, multiplies by `x`, sums every row over its 160000 columns, and adds the row sums to `acc`.
  Read at row `p` over the extended reals this is
      acc p + ∑ l, x (p, l) · (|w (0, l)| · f (0, l)).
  The reset block the body stores at the first chunk of a row block is `0` at every row.
-/
import proofs.«148946_j91268055040039_2_alg».proof.Proof.Gen.KernelIdeal.Skeleton
import proofs.«148946_j91268055040039_2_alg».proof.Proof.LibUnitAxisSums
import proofs.«148946_j91268055040039_2_alg».proof.Proof.LibHostRowMax
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The reset block is zero at every entry. -/
theorem reset_apply (i : S16x1.Idx) : k0_pay1 (F := Ideal) i = 0 := by
  unfold k0_pay1
  rw [shapeCast_self]
  exact Ideal.ofBits_zero_f32

/-- One step of the running total, at row `p`: the total so far plus the row's weighted sum over the chunk. -/
theorem step_apply (x : FVec Ideal S16x160000 .f32) (w f : FVec Ideal S1x160000 .f32) (acc : FVec Ideal S16x1 .f32)
    (p : Fin 16) (u : Fin 1) :
    k0_pay2 (F := Ideal) x w f acc (ix2 p u)
      = acc (ix2 p u) + ∑ l : Fin 160000, x (ix2 p l) * (FloatOps.absf (w (ix2 (0 : Fin 1) l)) * f (ix2 (0 : Fin 1) l)) := by
  unfold k0_pay2
  simp only [shapeCast_self]
  refine (addf_apply _ _ _).trans (congrArg (fun z => acc (ix2 p u) + z) ?_)
  refine (shapeCast_a_a1_apply _ shapeCasts_S16_S16x1 p u).trans ?_
  refine (Ideal.multiReduction_add_single _ 0x00000000#32 reduces_S16x160000_S16 (.inl rfl) rfl (ix1 p)).trans ?_
  refine Finset.sum_congr rfl fun k _ => ?_
  rw [Cert.HostRowMax.lift_row reduces_S16x160000_S16 p k]
  exact congrArg (fun z => x (ix2 p (⟨k.val, k.isLt⟩ : Fin 160000)) * z)
    (broadcastTo_1b_ab_apply _ broadcasts_S1x160000_S16x160000 p ⟨k.val, k.isLt⟩)

end Cert.KernelIdeal.Payload

end
-- ==== Proof.Blocks.lean ====
/-
  Where the kernel's blocks sit in its arrays.

  The grid has 2 × 25 points, numbered `t = 25 · b + s`: `b = t / 25` is the block of 16 batch rows, `s = t % 25` the
  chunk of 160000 flattened weight positions. At point `t`
    * the input block is rows `16 b … 16 b + 15`, columns `160000 s … 160000 s + 159999` of the flattened input,
    * the two weight blocks are the same columns of the two one-row weight arrays,
    * the output block is rows `16 b … 16 b + 15` of the `[32, 1]` result.
  A block's entry `(p, l)` is therefore the array's entry `(16 b + p, 160000 s + l)`. The flattened input and the
  flattened first weight row are the host's reshapes of the program's arguments; the second weight row is an argument.
-/
import proofs.«148946_j91268055040039_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices of the four windows at point `t`: row block `t / 25`, chunk `t % 25`. Decided over the 50 points. -/
theorem index_facts : ∀ t : Fin cfg0.N,
    (win0_0.index t 0 = t.val / 25 ∧ win0_0.index t 1 = t.val % 25)
    ∧ (win0_1.index t 0 = 0 ∧ win0_1.index t 1 = t.val % 25)
    ∧ (win0_2.index t 0 = 0 ∧ win0_2.index t 1 = t.val % 25)
    ∧ (win0_3.index t 0 = t.val / 25 ∧ win0_3.index t 1 = 0) :=
  (by decide +kernel : ∀ t : Fin grid0.N,
    (win0_0.index t 0 = t.val / 25 ∧ win0_0.index t 1 = t.val % 25)
    ∧ (win0_1.index t 0 = 0 ∧ win0_1.index t 1 = t.val % 25)
    ∧ (win0_2.index t 0 = 0 ∧ win0_2.index t 1 = t.val % 25)
    ∧ (win0_3.index t 0 = t.val / 25 ∧ win0_3.index t 1 = 0))

/-- The input block at point `t`, entry `(p, l)`: the flattened input at row `16 (t / 25) + p`, column
    `160000 (t % 25) + l`. -/
theorem input_apply (c : Dev nD) (t : Fin cfg0.N) (p : Fin 16) (l : Fin 160000) (r : Fin 32) (k : Fin 4000000)
    (hr : r.val = 16 * (t.val / 25) + p.val) (hk : k.val = 160000 * (t.val % 25) + l.val) :
    (iblk m c 0 t : Vec F S16x160000 .f32) (ix2 p l) = V m c main_v0 (ix2 r k) := by
  unfold iblk
  rw [View.read_apply]
  show V m c main_v0 (((cfg0.win 0).blk t).view.emb (ix2 p l)) = V m c main_v0 (ix2 r k)
  refine congrArg (V m c main_v0) (funext fun a => Fin.ext ?_)
  match a with
  | ⟨0, _⟩ => show win0_0.index t 0 * 16 + 1 * p.val = r.val; rw [(index_facts t).1.1, hr]; omega
  | ⟨1, _⟩ => show win0_0.index t 1 * 160000 + 1 * l.val = k.val; rw [(index_facts t).1.2, hk]; omega

/-- The first weight block at point `t`, entry `(0, l)`: the flattened first weight row at column `160000 (t % 25) + l`. -/
theorem weight_apply (c : Dev nD) (t : Fin cfg0.N) (l : Fin 160000) (k : Fin 4000000)
    (hk : k.val = 160000 * (t.val % 25) + l.val) :
    (iblk m c 1 t : Vec F S1x160000 .f32) (ix2 (0 : Fin 1) l) = V m c main_v1 (ix2 (0 : Fin 1) k) := by
  unfold iblk
  rw [View.read_apply]
  show V m c main_v1 (((cfg0.win 1).blk t).view.emb (ix2 (0 : Fin 1) l)) = V m c main_v1 (ix2 (0 : Fin 1) k)
  refine congrArg (V m c main_v1) (funext fun a => Fin.ext ?_)
  match a with
  | ⟨0, _⟩ => show win0_1.index t 0 * 1 + 1 * 0 = 0; rw [(index_facts t).2.1.1]
  | ⟨1, _⟩ => show win0_1.index t 1 * 160000 + 1 * l.val = k.val; rw [(index_facts t).2.1.2, hk]; omega

/-- The second weight block at point `t`, entry `(0, l)`: the second weight row at column `160000 (t % 25) + l`. -/
theorem scale_apply (c : Dev nD) (t : Fin cfg0.N) (l : Fin 160000) (k : Fin 4000000)
    (hk : k.val = 160000 * (t.val % 25) + l.val) :
    (iblk m c 2 t : Vec F S1x160000 .f32) (ix2 (0 : Fin 1) l) = V m c main_arg2 (ix2 (0 : Fin 1) k) := by
  unfold iblk
  rw [View.read_apply]
  show V m c main_arg2 (((cfg0.win 2).blk t).view.emb (ix2 (0 : Fin 1) l)) = V m c main_arg2 (ix2 (0 : Fin 1) k)
  refine congrArg (V m c main_arg2) (funext fun a => Fin.ext ?_)
  match a with
  | ⟨0, _⟩ => show win0_2.index t 0 * 1 + 1 * 0 = 0; rw [(index_facts t).2.2.1.1]
  | ⟨1, _⟩ => show win0_2.index t 1 * 160000 + 1 * l.val = k.val; rw [(index_facts t).2.2.1.2, hk]; omega

/-- The flattened input the region finds is the host's reshape of the program's first argument. -/
theorem flat_input (c : Dev nD) :
    V m c main_v0 = shapeCast S32x4000000 (m ((c : Thread nD τ).loc main_arg0)) shapeCasts_S32x400x10000_S32x4000000 := by
  show StableHlo.after hostOps0 (fun b => m (c, b)) (Proc.devRef .tc main_v0) = _
  after_results
  rfl

/-- The flattened first weight row the region finds is the host's reshape of the program's second argument. -/
theorem flat_weight (c : Dev nD) :
    V m c main_v1 = shapeCast S1x4000000 (m ((c : Thread nD τ).loc main_arg1)) shapeCasts_S400x10000_S1x4000000 := by
  show StableHlo.after hostOps0 (fun b => m (c, b)) (Proc.devRef .tc main_v1) = _
  after_results
  rfl

end Cert.KernelIdeal.Blocks

end
-- ==== Proof.Running.lean ====
/-
  The running total the kernel keeps across a row block's 25 chunks, and the row totals it writes out.

  Fix a core and write `X` for the flattened input, `W` for the flattened first weight row and `f` for the second
  weight row, as the region finds them. For a batch row `r` and a chunk `s`, the chunk total is
      chunk r s = ∑ l < 160000, X (r, 160000 s + l) · (|W (0, 160000 s + l)| · f (0, 160000 s + l)).
  After the grid point `n = 25 b + s` the scratch buffer holds, at row `p` of the block, the sum of the chunk totals
  `chunk (16 b + p) s'` over `s' ≤ s`: at `s = 0` the body resets the scratch to zero before it adds, and at every
  later chunk it adds to what the previous point left. At the last chunk (`s = 24`) the body copies the scratch to the
  output block, which therefore holds the sum of all 25 chunk totals of its rows.
-/
import proofs.«148946_j91268055040039_2_alg».proof.Proof.Gen.KernelIdeal.Frame
import proofs.«148946_j91268055040039_2_alg».proof.Proof.Pieces
import proofs.«148946_j91268055040039_2_alg».proof.Proof.PayloadAt
import proofs.«148946_j91268055040039_2_alg».proof.Proof.Blocks

noncomputable section

open scoped BigOperators
open Idealize.ShloMosaic Idealize.ShloMosaic.TcCoe Idealize.SL.Sem Idealize.ShloMosaic.ValueIdx

namespace Cert.KernelIdeal.Running

open Cert.KernelIdeal Cert.KernelIdeal.Gen

variable (m : (ℓ : Loc nD τ sig) → Buf (Elt Ideal) ℓ)

/-- Column `l` of chunk `s` among the 4000000 flattened positions. -/
def col (s : Fin 25) (l : Fin 160000) : Fin 4000000 :=
  ⟨160000 * s.val + l.val, by have := s.isLt; have := l.isLt; omega⟩

@[simp] theorem col_val (s : Fin 25) (l : Fin 160000) : (col s l).val = 160000 * s.val + l.val := rfl

/-- The flattened input `X`, the flattened first weight row `W` and the second weight row `f`, as the region finds them,
    with their entries read as extended reals. -/
abbrev flatX (c : Dev nD) : S32x4000000.Idx → EReal := V m c main_v0
abbrev flatW (c : Dev nD) : S1x4000000.Idx → EReal := V m c main_v1
abbrev scaleRow (c : Dev nD) : S1x4000000.Idx → EReal := V m c main_arg2

/-- The total of chunk `s` for batch row `r`. -/
def chunk (c : Dev nD) (r : Fin 32) (s : Fin 25) : EReal :=
  ∑ l : Fin 160000, flatX m c (ix2 r (col s l))
    * (FloatOps.absf (F := Ideal) (φ := .f32) (flatW m c (ix2 (0 : Fin 1) (col s l))) * scaleRow m c (ix2 (0 : Fin 1) (col s l)))

/-- The same, with the chunk a natural number (zero past the last chunk), to sum over an initial segment. -/
def chunkN (c : Dev nD) (r : Fin 32) (s : ℕ) : EReal := if h : s < 25 then chunk m c r ⟨s, h⟩ else 0

theorem chunkN_of_lt (c : Dev nD) (r : Fin 32) (s : Fin 25) : chunkN m c r s.val = chunk m c r s := by
  unfold chunkN; rw [dif_pos s.isLt]

/-- One step at the grid point `t`: row `p` of the block goes from `acc` to `acc` plus the chunk total of the point's
    chunk for the point's batch row. -/
theorem step_at (c : Dev nD) (t : Fin cfg0.N) (acc : FVec Ideal S16x1 .f32) (p : Fin 16) (u : Fin 1) (r : Fin 32)
    (hr : r.val = 16 * (t.val / 25) + p.val) (s : Fin 25) (hs : s.val = t.val % 25) :
    k0_pay2 (F := Ideal) (iblk m c 0 t) (iblk m c 1 t) (iblk m c 2 t) acc (ix2 p u) = acc (ix2 p u) + chunk m c r s := by
  refine (Payload.step_apply (iblk m c 0 t) (iblk m c 1 t) (iblk m c 2 t) acc p u).trans ?_
  refine congrArg (fun z => acc (ix2 p u) + z) (Finset.sum_congr rfl fun l _ => ?_)
  have hk : (col s l).val = 160000 * (t.val % 25) + l.val := by rw [col_val, hs]
  rw [Blocks.input_apply m c t p l r (col s l) hr hk, Blocks.weight_apply m c t l (col s l) hk,
    Blocks.scale_apply m c t l (col s l) hk]

/-- THE RUNNING TOTAL. After grid point `n` the scratch holds, at row `p`, the chunk totals of batch row
    `16 (n / 25) + p` summed over the chunks up to `n % 25`. By induction on the point. -/
theorem scratch_after (c : Dev nD) : ∀ (n : ℕ) (hn : n < cfg0.N) (p : Fin 16) (u : Fin 1) (r : Fin 32),
    r.val = 16 * (n / 25) + p.val →
    (outsAt0 m c n hn).2 (ix2 p u) = ∑ s ∈ Finset.range (n % 25 + 1), chunkN m c r s := by
  intro n
  induction n with
  | zero =>
    intro hn p u r hr
    rw [outsAt0_A m c ⟨0, hn⟩ (Nat.zero_mod 25) (by show ¬(0 % 25 = 24); decide)]
    dsimp only
    rw [Pieces.scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _ (iblk m c 0 ⟨0, hn⟩) (iblk m c 1 ⟨0, hn⟩) (iblk m c 2 ⟨0, hn⟩)]
    rw [step_at m c ⟨0, hn⟩ k0_pay1 p u r hr ⟨0, by decide⟩ (Nat.zero_mod 25).symm, Payload.reset_apply, zero_add]
    show chunk m c r ⟨0, _⟩ = ∑ s ∈ Finset.range 1, chunkN m c r s
    rw [Finset.sum_range_one]
    exact (chunkN_of_lt m c r ⟨0, by decide⟩).symm
  | succ k ih =>
    intro hn p u r hr
    have hN : k + 1 < 50 := lt_of_lt_of_eq hn N_0
    have hk : k < cfg0.N := Nat.lt_of_succ_lt hn
    by_cases h0 : (k + 1) % 25 = 0
    · have h1 : ¬(k + 1) % 25 = 24 := by omega
      rw [outsAt0_A m c ⟨k + 1, hn⟩ h0 h1]
      dsimp only
      rw [Pieces.scratch_first c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _) _ _ (iblk m c 0 ⟨k + 1, hn⟩) (iblk m c 1 ⟨k + 1, hn⟩) (iblk m c 2 ⟨k + 1, hn⟩)]
      rw [step_at m c ⟨k + 1, hn⟩ k0_pay1 p u r hr ⟨0, by decide⟩ h0.symm, Payload.reset_apply, zero_add, h0]
      show chunk m c r ⟨0, _⟩ = ∑ s ∈ Finset.range 1, chunkN m c r s
      rw [Finset.sum_range_one]
      exact (chunkN_of_lt m c r ⟨0, by decide⟩).symm
    · have hs : (k + 1) % 25 < 25 := Nat.mod_lt _ (by decide)
      have hprev : (outsAt0 m c k hk).2 (ix2 p u) = ∑ s ∈ Finset.range ((k + 1) % 25), chunkN m c r s := by
        have e := ih hk p u r (by omega)
        rw [show k % 25 + 1 = (k + 1) % 25 from by omega] at e
        exact e
      have hstep : ∀ acc : FVec Ideal S16x1 .f32, acc (ix2 p u) = ∑ s ∈ Finset.range ((k + 1) % 25), chunkN m c r s →
          k0_pay2 (F := Ideal) (iblk m c 0 ⟨k + 1, hn⟩) (iblk m c 1 ⟨k + 1, hn⟩) (iblk m c 2 ⟨k + 1, hn⟩) acc (ix2 p u)
            = ∑ s ∈ Finset.range ((k + 1) % 25 + 1), chunkN m c r s := by
        intro acc hacc
        rw [step_at m c ⟨k + 1, hn⟩ acc p u r hr ⟨(k + 1) % 25, hs⟩ rfl, hacc, Finset.sum_range_succ,
          chunkN_of_lt m c r ⟨(k + 1) % 25, hs⟩]
      by_cases h1 : (k + 1) % 25 = 24
      · rw [outsAt0_C m c ⟨k + 1, hn⟩ h0 h1]
        dsimp only
        rw [Pieces.scratch_last c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _) _ _ (iblk m c 0 ⟨k + 1, hn⟩) (iblk m c 1 ⟨k + 1, hn⟩) (iblk m c 2 ⟨k + 1, hn⟩)]
        exact hstep _ hprev
      · rw [outsAt0_B m c ⟨k + 1, hn⟩ h0 h1]
        dsimp only
        rw [Pieces.scratch_middle c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _) _ _ (iblk m c 0 ⟨k + 1, hn⟩) (iblk m c 1 ⟨k + 1, hn⟩) (iblk m c 2 ⟨k + 1, hn⟩)]
        exact hstep _ hprev

/-- THE ROW TOTALS. At a last chunk (`t % 25 = 24`) the output block holds, at row `p`, all 25 chunk totals of batch
    row `16 (t / 25) + p` added together. -/
theorem output_after (c : Dev nD) (t : Fin cfg0.N) (h24 : t.val % 25 = 24) (p : Fin 16) (u : Fin 1) (r : Fin 32)
    (hr : r.val = 16 * (t.val / 25) + p.val) :
    (outsAt0 m c t.val t.isLt).1 (ix2 p u) = ∑ s : Fin 25, chunk m c r s := by
  have hN : t.val < 50 := lt_of_lt_of_eq t.isLt N_0
  have h0 : ¬t.val % 25 = 0 := by omega
  have hpos : t.val - 1 < cfg0.N := Nat.lt_of_le_of_lt (Nat.sub_le _ _) t.isLt
  rw [outsAt0_C m c t h0 h24]
  dsimp only
  rw [Pieces.output_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)]
  rw [step_at m c t _ p u r hr ⟨24, by decide⟩ h24.symm, scratch_after m c (t.val - 1) hpos p u r (by omega)]
  rw [show (t.val - 1) % 25 + 1 = 24 from by omega, ← chunkN_of_lt m c r ⟨24, by decide⟩, ← Finset.sum_range_succ,
    Finset.sum_range]
  exact Finset.sum_congr rfl fun s _ => chunkN_of_lt m c r s

end Cert.KernelIdeal.Running

end
-- ==== Proof.KernelValue.lean ====
/-
  What the idealized kernel's program computes.

  The region's `[32, 1]` result holds, at batch row `r`, the sum of that row's 25 chunk totals: the two last-chunk grid
  points (`t = 24` and `t = 49`) are the only ones that write a block back, block `t / 25` each, and the two blocks
  of 16 rows tile the 32 rows. After the region the host adds the bias, broadcast from `[1]` through `[1, 1]` to
  `[32, 1]`, and that sum is the program's result; the four arguments end as they were launched.
-/
import proofs.«148946_j91268055040039_2_alg».proof.Proof.Gen.KernelIdeal.Frame
import proofs.«148946_j91268055040039_2_alg».proof.Proof.Running
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Running

variable (m : (ℓ : Loc nD τ sig) → Buf (Elt Ideal) ℓ) (ρ : Dev nD → PrngReg)

/-- The region's result as one function of the arrays the region finds: at batch row `r`, all its chunk totals. -/
def rowTotals (c : Dev nD) : S32x1.Idx → EReal := fun i => ∑ s : Fin 25, chunk m c ⟨(i 0).val, idx2_lt0 i⟩ s

theorem rowTotals_apply (c : Dev nD) (i : S32x1.Idx) (r : Fin 32) (hr : r.val = (i 0).val) :
    rowTotals m c i = ∑ s : Fin 25, chunk m c r s := by
  obtain rfl : r = ⟨(i 0).val, idx2_lt0 i⟩ := Fin.ext hr
  rfl

/-- What a last-chunk point writes back is its block of the row totals. -/
theorem flushed_eq (c : Dev nD) (t : Fin cfg0.N) (hf : (cfg0.win 3).flush t = true) :
    (dats m 0 c).flushed 3 t = ((cfg0.win 3).blk t).view.read (Elt Ideal) (rowTotals m c) := by
  have h24 : t.val % 25 = 24 := (flush0_3 t).mp hf
  have hN : t.val < 50 := lt_of_lt_of_eq t.isLt N_0
  show (cfg0.win 3).cut (grid0.coords t) ((dats m 0 c).after 3 t) = _
  rw [after0_3]
  funext j
  obtain ⟨p, u, rfl⟩ : ∃ (p : Fin 16) (u : Fin 1), j = ix2 p u := ⟨j 0, j 1, eq_ix2 j⟩
  obtain ⟨r, hr⟩ : ∃ r : Fin 32, r.val = 16 * (t.val / 25) + p.val :=
    ⟨⟨16 * (t.val / 25) + p.val, by have := p.isLt; omega⟩, rfl⟩
  show (outsAt0 m c t.val t.isLt).1 (ix2 p u) = rowTotals m c (((cfg0.win 3).blk t).view.emb (ix2 p u))
  refine (output_after m c t h24 p u r hr).trans (rowTotals_apply m c _ r ?_).symm
  show r.val = win0_3.index t 0 * 16 + 1 * p.val
  rw [(Blocks.index_facts t).2.2.2.1, hr]; omega

/-- An index of the result is in point `t`'s block iff each coordinate is in the block's range on its axis. -/
theorem mem_out_block (t : Fin cfg0.N) (i : S32x1.Idx) :
    i ∈ ((cfg0.win 3).blk t).view.set ↔
      ∀ a : Fin 2, win0_3.index t a * S16x1.size a ≤ (i a).val ∧ (i a).val < win0_3.index t a * S16x1.size a + S16x1.size a := by
  show i ∈ ((View.whole main_v2).slice (win0_3.rect t)).set ↔ _
  rw [View.set_slice_whole, Rect.mem_set_unit]
  exact Iff.rfl

/-- Every row of the result is in the block some last-chunk point writes back: row `r` in that of point
    `25 (r / 16) + 24`. -/
theorem covered (i : S32x1.Idx) :
    ∃ t : Fin cfg0.N, (cfg0.win 3).flush t = true ∧ i ∈ ((cfg0.win 3).blk t).view.set := by
  have h0 : (i 0).val < 32 := idx2_lt0 i
  have h1 : (i 1).val < 1 := idx2_lt1 i
  obtain ⟨t, ht⟩ : ∃ t : Fin cfg0.N, t.val = 25 * ((i 0).val / 16) + 24 :=
    ⟨⟨25 * ((i 0).val / 16) + 24, by rw [show cfg0.N = 50 from N_0]; omega⟩, rfl⟩
  obtain ⟨-, -, -, e0, e1⟩ := Blocks.index_facts t
  refine ⟨t, (flush0_3 t).mpr (by omega), ?_⟩
  rw [mem_out_block]
  intro a
  match a with
  | ⟨0, _⟩ => show win0_3.index t 0 * 16 ≤ (i 0).val ∧ (i 0).val < win0_3.index t 0 * 16 + 16; omega
  | ⟨1, _⟩ => show win0_3.index t 1 * 1 ≤ (i 1).val ∧ (i 1).val < win0_3.index t 1 * 1 + 1; omega

/-- So the region's result array ends holding the row totals. -/
theorem region_result (c : Dev nD) : (dats m 0 c).arrAt 3 cfg0.N = rowTotals m c :=
  (dats m 0 c).arrAt_eq_of_cover 3 (rowTotals m c) (flushed_eq m c) covered

/-- The bias as the host adds it: broadcast from `[1]` through `[1, 1]` to `[32, 1]`. -/
def biasColumn (b : S1.Idx → EReal) : S32x1.Idx → EReal :=
  broadcastInDim S32x1 ![0, 1] bcast_S1x1_S32x1_0_1 (broadcastInDim S1x1 ![1] bcast_S1_S1x1_1 b)

/-- The program's result after the host lines that follow the region: the row totals plus the bias column. -/
theorem program_result (c : Dev nD) :
    Pipeline.afterTail₀ cfgs (dats m) 0 (V0 m) [hostOps1] c main_v5
      = addf (F := Ideal) (s := S32x1) (φ := .f32) (rowTotals m c) (biasColumn (m ((c : Thread nD τ).loc main_arg3))) := by
  unfold Pipeline.afterTail₀ biasColumn
  show StableHlo.after hostOps1 _ (Proc.devRef .tc main_v5) = _
  after_results
  refine congr (congrArg addf ?_)
    (congrArg (fun b : FVec Ideal S1 .f32 =>
      broadcastInDim S32x1 ![0, 1] bcast_S1x1_S32x1_0_1 (broadcastInDim S1x1 ![1] bcast_S1_S1x1_1 b)) ?_)
  · exact (Pipeline.withArrays_arr spec0 launch0.win.arr_inj c _ _ 3).trans (region_result m c)
  · exact (Pipeline.withArrays_of_ne _ c (V0 m c) _ main_arg3
      (by exact (by decide : ∀ w, Pipeline.arrRef spec0 w ≠ main_arg3))).trans (V_main_arg3 m c)

/-- THE KERNEL'S RUN, READ. Every weakly fair execution of the idealized kernel's program terminates with its result
    at the row totals plus the bias column, and its four arguments as launched. -/
theorem run : θ_run defs (onTc (τ := τ) (main (F := Ideal))) ⟨m, fun _ => 0, ρ⟩ fun r => ∀ c : Dev nD,
      r.2.mem ((c.tc : Thread nD τ).loc main_v5)
        = addf (F := Ideal) (s := S32x1) (φ := .f32) (rowTotals m c) (biasColumn (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (program_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KernelValue

end
-- ==== Proof.Flatten.lean ====
/-
  The two flattening reshapes, read at coordinates.

  Flattening the last two axes `[400, 10000]` into one axis of `4000000` positions puts the entry `(a, b)` at position
  `10000 a + b`; so position `k` holds the entry `(k / 10000, k % 10000)`. This is the row-major order, and it is
  the same for the input `[32, 400, 10000] → [32, 4000000]` (the batch row is kept) and for the weight
  `[400, 10000] → [1, 4000000]` (the one row is row 0).
-/
import Idealize.ShloMosaic.Lib.Pipeline.Value
import Idealize.ShloMosaic.Lib.ValueIdx

noncomputable section

namespace Cert.Flatten

open Idealize.ShloMosaic Idealize.ShloMosaic.ValueIdx

variable {α : Type}

/-- The row `k / 10000` of the `[400, 10000]` grid that flattened position `k` comes from. -/
def hi (k : Fin 4000000) : Fin 400 := ⟨k.val / 10000, by have := k.isLt; omega⟩
/-- Its column `k % 10000`. -/
def lo (k : Fin 4000000) : Fin 10000 := ⟨k.val % 10000, by omega⟩

@[simp] theorem hi_val (k : Fin 4000000) : (hi k).val = k.val / 10000 := rfl
@[simp] theorem lo_val (k : Fin 4000000) : (lo k).val = k.val % 10000 := rfl

/-- The flattened input at `(r, k)` is the input at `(r, k / 10000, k % 10000)`. -/
theorem input_apply (y : (⟨3, ![32, 400, 10000]⟩ : Shape).Idx → α)
    (h : (⟨3, ![32, 400, 10000]⟩ : Shape).ShapeCasts ⟨2, ![32, 4000000]⟩) (r : Fin 32) (k : Fin 4000000) :
    shapeCast ⟨2, ![32, 4000000]⟩ y h (ix2 r k) = y (ix3 r (hi k) (lo k)) :=
  shapeCast_apply y h _ _ (by
    rw [Shape.rowMajor_val_three, Shape.rowMajor_val_two]
    show (r.val * 400 + k.val / 10000) * 10000 + k.val % 10000 = r.val * 4000000 + k.val
    omega)

/-- The flattened weight at `(0, k)` is the weight at `(k / 10000, k % 10000)`. -/
theorem weight_apply (y : (⟨2, ![400, 10000]⟩ : Shape).Idx → α)
    (h : (⟨2, ![400, 10000]⟩ : Shape).ShapeCasts ⟨2, ![1, 4000000]⟩) (k : Fin 4000000) :
    shapeCast ⟨2, ![1, 4000000]⟩ y h (ix2 (0 : Fin 1) k) = y (ix2 (hi k) (lo k)) :=
  shapeCast_apply y h _ _ (by
    rw [Shape.rowMajor_val_two, Shape.rowMajor_val_two]
    show k.val / 10000 * 10000 + k.val % 10000 = 0 * 4000000 + k.val
    omega)

end Cert.Flatten

end
-- ==== Proof.RefValue.lean ====
/-
  What the idealized reference computes, read at a batch row.

  The reference multiplies the input by `|W|` (repeated over the batch), flattens the product to `[32, 4000000]`, and
  contracts it with the second weight row over the 4000000 positions; then it adds the bias column. Position `k` of
  the flattened product at batch row `r` is `x (r, k / 10000, k % 10000) · |W (k / 10000, k % 10000)|`, so the result
  at row `r` is
      ∑ k < 4000000, x (r, k / 10000, k % 10000) · |W (k / 10000, k % 10000)| · f (0, k)   +   bias.
  Each step is the generated reading of one host operation at an index; what is added here is the arithmetic of
  the flattened position.
-/
import proofs.«148946_j91268055040039_2_alg».proof.Proof.Gen.ReferenceIdeal.Read
import proofs.«148946_j91268055040039_2_alg».proof.Proof.Flatten
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Flatten

variable (x0 : (⟨S32x400x10000, .f32⟩ : BufTy).Contents (Elt Ideal)) (x1 : (⟨S400x10000, .f32⟩ : BufTy).Contents (Elt Ideal))
  (x2 : (⟨S1x4000000, .f32⟩ : BufTy).Contents (Elt Ideal)) (x3 : (⟨S1, .f32⟩ : BufTy).Contents (Elt Ideal))

/-- The flattened product `x · |W|` at batch row `r`, position `k`. -/
theorem weighted_apply (r : Fin 32) (k : Fin 4000000) :
    val_main_v4 (F := Ideal) x0 x1 (ix2 r k) = x0 (ix3 r (hi k) (lo k)) * FloatOps.absf (F := Ideal) (φ := .f32) (x1 (ix2 (hi k) (lo k))) := by
  have e4 : idx_main_v4 (ix2 r k) = ix3 r (hi k) (lo k) := funext fun a => Fin.ext (by
    have hr := r.isLt; have hk := k.isLt
    match a with
    | ⟨0, _⟩ => show (r.val * 4000000 + k.val) / 4000000 = r.val; omega
    | ⟨1, _⟩ => show (r.val * 4000000 + k.val) / 10000 % 400 = k.val / 10000; omega
    | ⟨2, _⟩ => show (r.val * 4000000 + k.val) % 10000 = k.val % 10000; omega)
  have e2 : idx_main_v1 (idx_main_v2 (ix3 r (hi k) (lo k))) = ix2 (hi k) (lo k) := funext fun a => Fin.ext (by
    match a with
    | ⟨0, _⟩ => rfl
    | ⟨1, _⟩ => rfl)
  rw [val_main_v4_apply, val_main_v3_apply, val_main_v2_apply, val_main_v1_apply, val_main_v0_apply, e4, e2]
  rfl

/-- The contraction at batch row `r`: a sum over the 4000000 flattened positions. -/
theorem contraction_apply (r : Fin 32) (u : Fin 1) :
    val_main_v6 (F := Ideal) x0 x1 x2 (ix2 r u)
      = ∑ k : Fin 4000000, x0 (ix3 r (hi k) (lo k)) * FloatOps.absf (F := Ideal) (φ := .f32) (x1 (ix2 (hi k) (lo k))) * x2 (ix2 (0 : Fin 1) k) := by
  rw [val_main_v6_apply]
  refine Finset.sum_congr rfl fun k _ => ?_
  have el : lidx_main_v6 (ix2 r u) k = ix2 r k := funext fun a => Fin.ext (by
    match a with
    | ⟨0, _⟩ => rfl
    | ⟨1, _⟩ => rfl)
  have er : idx_main_v5 (ridx_main_v6 (ix2 r u) k) = ix2 (0 : Fin 1) k := funext fun a => Fin.ext (by
    have hu := u.isLt
    match a with
    | ⟨0, _⟩ => show u.val = 0; omega
    | ⟨1, _⟩ => rfl)
  rw [el, val_main_v5_apply, er, weighted_apply]

/-- The reference's result at batch row `r`: the contraction plus the bias column's entry. -/
theorem result_apply (r : Fin 32) (u : Fin 1) :
    val_main_v9 (F := Ideal) x0 x1 x2 x3 (ix2 r u)
      = (∑ k : Fin 4000000, x0 (ix3 r (hi k) (lo k)) * FloatOps.absf (F := Ideal) (φ := .f32) (x1 (ix2 (hi k) (lo k))) * x2 (ix2 (0 : Fin 1) k))
        + val_main_v8 (F := Ideal) x3 (ix2 r u) := by
  rw [val_main_v9_apply, contraction_apply]
  rfl

end Cert.ReferenceIdeal.RefValue

end
-- ==== Proof.LibChunkAlgebra.lean ====
/-
  The one algebraic law that joins the two programs.

  The kernel walks the `q * n` positions of the flattened weight axis chunk by chunk: for every chunk `s` it adds up
  `x · (w · f)` over the chunk's `n` positions, and it adds the chunk totals together. The reference multiplies
  `x · w` first, and contracts the product with `f` over all `q * n` positions at once. The two totals agree in any
  structure with a commutative, associative addition and an associative multiplication: the chunks partition the
  positions (a sum over `q * n` positions is the sum of its `q` blocks of `n`), and `x · (w · f) = (x · w) · f`.
  No distributivity and no cancellation is used, so on the extended reals the law holds at infinite entries too.
-/
import proofs.«148946_j91268055040039_2_alg».proof.Proof.LibUnitAxisSums

open scoped BigOperators

namespace Cert.ChunkAlgebra

open Idealize.ShloMosaic.ValueIdx

/-- Chunk totals of `x · (w · f)`, added over the chunks, are the total of `(x · w) · f` over all positions.
    `pos s l` is position `l` of chunk `s`: any function into the positions whose value is `n * s + l`. -/
theorem chunks_eq_total {M : Type*} [AddCommMonoid M] [Semigroup M] (q n : ℕ) (x w f : Fin (q * n) → M)
    (pos : Fin q → Fin n → Fin (q * n)) (hpos : ∀ s l, (pos s l).val = n * s.val + l.val) :
    ∑ s : Fin q, ∑ l : Fin n, x (pos s l) * (w (pos s l) * f (pos s l)) = ∑ k : Fin (q * n), x k * w k * f k := by
  rw [sum_fin_blocks q n fun k => x k * w k * f k]
  refine Finset.sum_congr rfl fun s _ => Finset.sum_congr rfl fun l _ => ?_
  have key : ∀ k : Fin (q * n), k = pos s l →
      x (pos s l) * (w (pos s l) * f (pos s l)) = x k * w k * f k := by
    rintro _ rfl; exact (mul_assoc _ _ _).symm
  exact key _ (Fin.ext (hpos s l).symm)

/-- The same law with the number of positions given as a number `N` known to be `q * n`. -/
theorem chunks_eq_total_of_eq {M : Type*} [AddCommMonoid M] [Semigroup M] (q n N : ℕ) (hN : N = q * n)
    (x w f : Fin N → M) (pos : Fin q → Fin n → Fin N) (hpos : ∀ s l, (pos s l).val = n * s.val + l.val) :
    ∑ s : Fin q, ∑ l : Fin n, x (pos s l) * (w (pos s l) * f (pos s l)) = ∑ k : Fin N, x k * w k * f k := by
  subst hN
  exact chunks_eq_total q n x w f pos hpos

end Cert.ChunkAlgebra
-- ==== Proof.Bridge.lean ====
/-
  The two programs compute one function of the arguments.

  At batch row `r` the kernel's program ends at
      ∑ s < 25, ∑ l < 160000, X (r, 160000 s + l) · (|W (0, 160000 s + l)| · f (0, 160000 s + l))   +   bias,
  over the flattened input `X` and the flattened first weight row `W`; the reference ends at
      ∑ k < 4000000, x (r, k / 10000, k % 10000) · |w (k / 10000, k % 10000)| · f (0, k)   +   bias.
  The 25 chunks of 160000 partition the 4000000 positions and multiplication is associative, so the two double sums
  are one sum (the chunk law); the flattened arrays at position `k` are the arguments at `(k / 10000, k % 10000)`; and
  the bias column is the same broadcast in both programs. Nothing here needs the entries to be finite.
-/
import proofs.«148946_j91268055040039_2_alg».proof.Proof.KernelValue
import proofs.«148946_j91268055040039_2_alg».proof.Proof.RefValue
import proofs.«148946_j91268055040039_2_alg».proof.Proof.LibChunkAlgebra
import proofs.«148946_j91268055040039_2_alg».proof.Proof.Flatten

noncomputable section

open scoped BigOperators
open Idealize.ShloMosaic Idealize.ShloMosaic.TcCoe Idealize.SL.Sem Idealize.ShloMosaic.ValueIdx

namespace Cert.Bridge

open Cert.KernelIdeal Cert.KernelIdeal.Gen Cert.KernelIdeal.Running Cert.KernelIdeal.KernelValue Cert.Flatten

variable (m : (ℓ : Loc nD τ sig) → Buf (Elt Ideal) ℓ)
variable (x0 : (⟨Cert.ReferenceIdeal.S32x400x10000, .f32⟩ : BufTy).Contents (Elt Ideal))
  (x1 : (⟨Cert.ReferenceIdeal.S400x10000, .f32⟩ : BufTy).Contents (Elt Ideal))
  (x2 : (⟨Cert.ReferenceIdeal.S1x4000000, .f32⟩ : BufTy).Contents (Elt Ideal))
  (x3 : (⟨Cert.ReferenceIdeal.S1, .f32⟩ : BufTy).Contents (Elt Ideal))

/-- The kernel's row totals at batch row `r`, as one sum over the 4000000 positions of the program's arguments
    `x0` (the input), `x1` (the first weight) and `x2` (the second weight row). -/
theorem totals_eq (c : Dev nD) (r : Fin 32) (u : Fin 1)
    (h0 : m ((c : Thread nD τ).loc main_arg0) = x0) (h1 : m ((c : Thread nD τ).loc main_arg1) = x1)
    (h2 : m ((c : Thread nD τ).loc main_arg2) = x2) :
    rowTotals m c (ix2 r u)
      = ∑ k : Fin 4000000, x0 (ix3 r (hi k) (lo k)) * FloatOps.absf (F := Ideal) (φ := .f32) (x1 (ix2 (hi k) (lo k)))
          * x2 (ix2 (0 : Fin 1) k) := by
  rw [rowTotals_apply m c (ix2 r u) r rfl]
  unfold chunk
  refine (Cert.ChunkAlgebra.chunks_eq_total_of_eq 25 160000 4000000 (by decide)
    (fun k : Fin 4000000 => flatX m c (ix2 r k))
    (fun k : Fin 4000000 => FloatOps.absf (F := Ideal) (φ := .f32) (flatW m c (ix2 (0 : Fin 1) k)))
    (fun k : Fin 4000000 => scaleRow m c (ix2 (0 : Fin 1) k)) col col_val).trans ?_
  refine Finset.sum_congr rfl fun k _ => ?_
  have ex : flatX m c (ix2 r k) = x0 (ix3 r (hi k) (lo k)) :=
    (congrFun (Blocks.flat_input m c) (ix2 r k)).trans ((Cert.Flatten.input_apply _ _ r k).trans (congrFun h0 _))
  have ew : flatW m c (ix2 (0 : Fin 1) k) = x1 (ix2 (hi k) (lo k)) :=
    (congrFun (Blocks.flat_weight m c) (ix2 (0 : Fin 1) k)).trans ((Cert.Flatten.weight_apply _ _ k).trans (congrFun h1 _))
  have ef : scaleRow m c (ix2 (0 : Fin 1) k) = x2 (ix2 (0 : Fin 1) k) :=
    (congrFun (V_main_arg2 m c) (ix2 (0 : Fin 1) k)).trans (congrFun h2 _)
  show flatX m c (ix2 r k) * FloatOps.absf (F := Ideal) (φ := .f32) (flatW m c (ix2 (0 : Fin 1) k)) * scaleRow m c (ix2 (0 : Fin 1) k) = _
  rw [ex, ew, ef]

/-- The kernel's program and the reference end at one array, as functions of the same argument arrays. -/
theorem kernel_eq_reference (c : Dev nD)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    addf (F := Ideal) (s := S32x1) (φ := .f32) (rowTotals m c) (biasColumn (m ((c : Thread nD τ).loc main_arg3)))
      = Cert.ReferenceIdeal.Read.val_main_v9 (F := Ideal) x0 x1 x2 x3 := by
  funext i
  obtain ⟨r, u, rfl⟩ : ∃ (r : Fin 32) (u : Fin 1), i = ix2 r u := ⟨i 0, i 1, eq_ix2 i⟩
  rw [Cert.ReferenceIdeal.RefValue.result_apply, h3]
  refine (addf_apply _ _ _).trans ?_
  exact congrArg₂ (· + ·) (totals_eq m x0 x1 x2 c r u h0 h1 h2) rfl

end Cert.Bridge

end
-- ==== Proof.lean ====
/-
  The certificate: a blocked, chunk-accumulating weighted row sum against one matrix contraction.

  For a batch of 32 inputs `x` of shape `[400, 10000]`, a weight `W` of the same shape, a second weight row `f` over
  the 4000000 flattened positions and a bias `b`, both programs compute, for every batch row `r`,
      out r = ∑ over the 4000000 positions k of  x (r, k) · |W k| · f k  +  b.
  The kernel flattens `x` and `W` on the host, and on a 2 × 25 grid walks 2 blocks of 16 batch rows and, inside a
  block, 25 chunks of 160000 positions: it keeps a `[16, 1]` running total in a scratch buffer, reset at a block's first
  chunk, to which every chunk adds its rows' sums of `x · (|W| · f)`; at a block's last chunk the total is written
  out, and the host adds the bias. The reference forms `x · |W|`, flattens it, contracts it with `f` in one
  `dot_general`, and adds the bias.
  Over the extended reals the two agree entry by entry: the 25 chunks partition the positions, addition is commutative
  and associative, and `x · (|W| · f) = (x · |W|) · f`. No distributive law is used, so the agreement does not depend
  on the inputs being finite, and the precondition is never opened.

  The modules: `Pieces` reads what one run of the body leaves in the scratch and the output block; `PayloadAt` reads
  the body's arithmetic at a row; `Blocks` places the blocks in their arrays; `Running` is the induction over grid
  points that makes the scratch the running total; `KernelValue` turns the written-back blocks into the result array,
  applies the host's bias addition and states the kernel's run; `RefValue` reads the reference at a row;
  `LibChunkAlgebra` is the regrouping law and `Flatten` the position arithmetic; `Bridge` joins the two sides.
  The frames of the two kernel programs and the reference's run are the generated ones.
-/
import proofs.«148946_j91268055040039_2_alg».proof.Defs
import proofs.«148946_j91268055040039_2_alg».proof.Proof.Gen.Kernel
import proofs.«148946_j91268055040039_2_alg».proof.Proof.Gen.Kernel.Skeleton
import proofs.«148946_j91268055040039_2_alg».proof.Proof.Gen.Kernel.Launch
import proofs.«148946_j91268055040039_2_alg».proof.Proof.Gen.Kernel.Points
import proofs.«148946_j91268055040039_2_alg».proof.Proof.Gen.Kernel.Frame
import proofs.«148946_j91268055040039_2_alg».proof.Proof.Gen.KernelIdeal
import proofs.«148946_j91268055040039_2_alg».proof.Proof.Gen.KernelIdeal.Skeleton
import proofs.«148946_j91268055040039_2_alg».proof.Proof.Gen.KernelIdeal.Launch
import proofs.«148946_j91268055040039_2_alg».proof.Proof.Gen.KernelIdeal.Points
import proofs.«148946_j91268055040039_2_alg».proof.Proof.Gen.KernelIdeal.Frame
import proofs.«148946_j91268055040039_2_alg».proof.Proof.Gen.ReferenceIdeal
import proofs.«148946_j91268055040039_2_alg».proof.Proof.Gen.Pre_finite_inputs
import proofs.«148946_j91268055040039_2_alg».proof.Proof.Gen.ReferenceIdeal.Run
import proofs.«148946_j91268055040039_2_alg».proof.Proof.Gen.ReferenceIdeal.Read
import proofs.«148946_j91268055040039_2_alg».proof.Proof.KernelValue
import proofs.«148946_j91268055040039_2_alg».proof.Proof.Bridge
import Idealize.ShloMosaic.Adequacy
import Idealize.ShloMosaic.Init

noncomputable section

namespace Cert.Proof

open Idealize.ShloMosaic Idealize.SL.Sem

/-- The kernel as printed runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel, so there is nothing to preserve. -/
theorem preserves : Cert.preserves_Kernel_KernelIdeal := trivial

/-- From memories that agree on the four arguments, the idealized kernel's program ends at the row totals plus the
    bias column, the reference at its contraction plus the bias column, and these are one array. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v9_eq]
  exact (Cert.Bridge.kernel_eq_reference m _ _ _ _ c rfl rfl rfl rfl).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
